-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32x1024 : Shape := ⟨2, ![32, 1024]⟩
abbrev S1024x32 : Shape := ⟨2, ![1024, 32]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x32 .f32) (main_arg9 : FVec F S32 .f32) (main_arg10 : FVec F S32x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg8
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg10
  let main_cst_18 : FVec F S_ .f32 := constant S_ .f32 0x7F800000#32
  let main_v50 : FVec F S32x1 .f32 := broadcastInDim S32x1 ![] bcast_S_S32x1 main_cst_18
  fn_part3 (F := F) main_arg11 main_v48 main_v49 main_v50

def fn_part1 {F : FTy → Type} [FloatOps F] (main_arg4 : FVec F S1024x512 .f32) (main_arg5 : FVec F S512 .f32) (main_arg6 : FVec F S512x128 .f32) (main_arg7 : FVec F S128 .f32) (main_arg8 : FVec F S128x32 .f32) (main_arg9 : FVec F S32 .f32) (main_arg10 : FVec F S32x1 .f32) (main_arg11 : FVec F S1 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x1024 .f32) (main_arg1 : FVec F S32768x1024 .f32) (main_arg2 : FVec F S32x1024 .f32) (main_arg3 : FVec F S1024x32 .f32) (main_arg4 : FVec F S1024x512 .f32) (main_arg5 : FVec F S512 .f32) (main_arg6 : FVec F S512x128 .f32) (main_arg7 : FVec F S128 .f32) (main_arg8 : FVec F S128x32 .f32) (main_arg9 : FVec F S32 .f32) (main_arg10 : FVec F S32x1 .f32) (main_arg11 : FVec F S1 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_arg5 main_arg6 main_arg7 main_arg8 main_arg9 main_arg10 main_arg11 main_v13 main_v16
-- ==== Kernel.lean ====
abbrev S32768x1024 : Shape := ⟨2, ![32768, 1024]⟩
abbrev S32x1024 : Shape := ⟨2, ![32, 1024]⟩
abbrev S1024x32 : Shape := ⟨2, ![1024, 32]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S32x32 : Shape := ⟨2, ![32, 32]⟩
abbrev S_ : Shape := ⟨0, ![]⟩
abbrev S32x32x32 : Shape := ⟨3, ![32, 32, 32]⟩
abbrev S1x32x1x32 : Shape := ⟨4, ![1, 32, 1, 32]⟩
abbrev S1x32x32x32 : Shape := ⟨4, ![1, 32, 32, 32]⟩
abbrev S32768x1 : Shape := ⟨2, ![32768, 1]⟩
abbrev S1024x1024 : Shape := ⟨2, ![1024, 1024]⟩
abbrev S1024x1 : Shape := ⟨2, ![1024, 1]⟩
abbrev S1x512 : Shape := ⟨2, ![1, 512]⟩
abbrev S1024x128 : Shape := ⟨2, ![1024, 128]⟩
abbrev S1x128 : Shape := ⟨2, ![1, 128]⟩
abbrev S1x32 : Shape := ⟨2, ![1, 32]⟩
abbrev S1x1 : Shape := ⟨2, ![1, 1]⟩

abbrev nBuf : Space → Nat
  | .hbm => 30
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32x1024, .f32⟩
  | .hbm, ⟨3, _⟩ => ⟨S1024x32, .f32⟩
  | .hbm, ⟨4, _⟩ => ⟨S1024x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1024x32, .f32⟩
  | .hbm, ⟨13, _⟩ => ⟨S32x32, .i32⟩
  | .hbm, ⟨14, _⟩ => ⟨S32x32, .i32⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i1⟩
  | .hbm, ⟨19, _⟩ => ⟨S32x32, .f32⟩
  | .hbm, ⟨20, _⟩ => ⟨S32x32x32, .f32⟩
  | .hbm, ⟨21, _⟩ => ⟨S32x1024, .f32⟩
  | .hbm, ⟨22, _⟩ => ⟨S1x32x1x32, .f32⟩
  | .hbm, ⟨23, _⟩ => ⟨S1x32x32x32, .f32⟩
  | .hbm, ⟨24, _⟩ => ⟨S32x1024, .f32⟩
  | .hbm, ⟨25, _⟩ => ⟨S1024x512, .bf16⟩
  | .hbm, ⟨26, _⟩ => ⟨S512x128, .bf16⟩
  | .hbm, ⟨27, _⟩ => ⟨S128x32, .bf16⟩
  | .hbm, ⟨28, _⟩ => ⟨S32x1, .bf16⟩
  | .hbm, ⟨29, _⟩ => ⟨S32768x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x32, .f32⟩
  | .local _ .vmem, ⟨5, _⟩ => ⟨S1024x32, .f32⟩
  | .local _ .vmem, ⟨6, _⟩ => ⟨S32x1024, .f32⟩
  | .local _ .vmem, ⟨7, _⟩ => ⟨S32x1024, .f32⟩
  | .local _ .vmem, ⟨8, _⟩ => ⟨S1024x512, .bf16⟩
  | .local _ .vmem, ⟨9, _⟩ => ⟨S512, .f32⟩
  | .local _ .vmem, ⟨10, _⟩ => ⟨S512x128, .bf16⟩
  | .local _ .vmem, ⟨11, _⟩ => ⟨S128, .f32⟩
  | .local _ .vmem, ⟨12, _⟩ => ⟨S128x32, .bf16⟩
  | .local _ .vmem, ⟨13, _⟩ => ⟨S32, .f32⟩
  | .local _ .vmem, ⟨14, _⟩ => ⟨S32x1, .bf16⟩
  | .local _ .vmem, ⟨15, _⟩ => ⟨S1, .f32⟩
  | .local _ .vmem, ⟨16, _⟩ => ⟨S1024x1, .f32⟩
  | .local _ .vmem, ⟨17, _⟩ => ⟨S1024x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S32x1024_S1024x32_1_0 : S32x1024.Transposes [1, 0] S1024x32
  bcast_S_S32x32 : S_.BroadcastsInDim S32x32 (![] : Fin 0 → Fin S32x32.rank)
  bcast_S32x32_S32x32x32_0_1 : S32x32.BroadcastsInDim S32x32x32 (![0, 1] : Fin 2 → Fin S32x32x32.rank)
  shapeCasts_S32x32x32_S32x1024 : S32x32x32.ShapeCasts S32x1024
  shapeCasts_S32x32_S1x32x1x32 : S32x32.ShapeCasts S1x32x1x32
  bcast_S1x32x1x32_S1x32x32x32_0_1_2_3 : S1x32x1x32.BroadcastsInDim S1x32x32x32 (![0, 1, 2, 3] : Fin 4 → Fin S1x32x32x32.rank)
  shapeCasts_S1x32x32x32_S32x1024 : S1x32x32x32.ShapeCasts S32x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1024_S1024x32_S1024x32_1_0_0_1_n_n_wf : DotDims.WF S1024x1024 S1024x32 S1024x32 [1] [0] [0] [1] [] []
  dot_S1024x32_S32x1024_S1024x1024_1_0_0_1_n_n_wf : DotDims.WF S1024x32 S32x1024 S1024x1024 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S1024x128_S128x32_S1024x32_1_0_0_1_n_n_wf : DotDims.WF S1024x128 S128x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S1024x32.size a
  hwx0_2 : ∀ i : grid0.Coords, EltTy.bits .f32 = 32 ∨ (Rect.block (s := S1024x32) S1024x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .f32 = 32 ∨ (Rect.block (s := S1024x32) S1024x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x1024.size a
  hwx0_4 : ∀ i : grid0.Coords, EltTy.bits .f32 = 32 ∨ (Rect.block (s := S32x1024) S32x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .f32 = 32 ∨ (Rect.block (s := S32x1024) S32x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S512x128.size a
  hwx0_8 : ∀ i : grid0.Coords, EltTy.bits .bf16 = 32 ∨ (Rect.block (s := S512x128) S512x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x32.size a ≤ S128x32.size a
  hwx0_10 : ∀ i : grid0.Coords, EltTy.bits .bf16 = 32 ∨ (Rect.block (s := S128x32) S128x32.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x1.size a ≤ S32x1.size a
  hwx0_12 : ∀ i : grid0.Coords, EltTy.bits .bf16 = 32 ∨ (Rect.block (s := S32x1) S32x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S32768x1.size a
  hwx0_14 : ∀ i : grid0.Coords, EltTy.bits .f32 = 32 ∨ (Rect.block (s := S32768x1) S1024x1.size (cc0_transform_14 i) (hinb0_14 i)).WholeWords (EltTy.packing .f32)

variable [Facts₀]

def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S32x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S512x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S128x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S32x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1024x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32x1024 : Shape := ⟨2, ![32, 1024]⟩
abbrev S1024x32 : Shape := ⟨2, ![1024, 32]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S32768x32 : Shape := ⟨2, ![32768, 32]⟩
abbrev S32768x32x1 : Shape := ⟨3, ![32768, 32, 1]⟩
abbrev S32768x1x32 : Shape := ⟨3, ![32768, 1, 32]⟩
abbrev S32768x32x32 : Shape := ⟨3, ![32768, 32, 32]⟩
abbrev S32768x512 : Shape := ⟨2, ![32768, 512]⟩
abbrev S1x512 : Shape := ⟨2, ![1, 512]⟩
abbrev S_ : Shape := ⟨0, ![]⟩
abbrev S32768x128 : Shape := ⟨2, ![32768, 128]⟩
abbrev S1x128 : Shape := ⟨2, ![1, 128]⟩
abbrev S1x32 : Shape := ⟨2, ![1, 32]⟩
abbrev S32768x1 : Shape := ⟨2, ![32768, 1]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32x1024, .f32⟩
  | .hbm, ⟨3, _⟩ => ⟨S1024x32, .f32⟩
  | .hbm, ⟨4, _⟩ => ⟨S1024x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S128x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S32768x32, .f32⟩
  | .hbm, ⟨13, _⟩ => ⟨S32768x32, .f32⟩
  | .hbm, ⟨14, _⟩ => ⟨S32768x32x1, .f32⟩
  | .hbm, ⟨15, _⟩ => ⟨S32768x1x32, .f32⟩
  | .hbm, ⟨16, _⟩ => ⟨S32768x32x32, .f32⟩
  | .hbm, ⟨17, _⟩ => ⟨S32768x32x32, .f32⟩
  | .hbm, ⟨18, _⟩ => ⟨S32768x32x32, .f32⟩
  | .hbm, ⟨19, _⟩ => ⟨S32768x1024, .f32⟩
  | .hbm, ⟨20, _⟩ => ⟨S32768x512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S32768x512, .f32⟩
  | .hbm, ⟨26, _⟩ => ⟨S32768x512, .f32⟩
  | .hbm, ⟨27, _⟩ => ⟨S32768x128, .f32⟩
  | .hbm, ⟨28, _⟩ => ⟨S1x128, .f32⟩
  | .hbm, ⟨29, _⟩ => ⟨S32768x128, .f32⟩
  | .hbm, ⟨30, _⟩ => ⟨S32768x128, .f32⟩
  | .hbm, ⟨31, _⟩ => ⟨S_, .f32⟩
  | .hbm, ⟨32, _⟩ => ⟨S32768x128, .f32⟩
  | .hbm, ⟨33, _⟩ => ⟨S32768x128, .f32⟩
  | .hbm, ⟨34, _⟩ => ⟨S32768x32, .f32⟩
  | .hbm, ⟨35, _⟩ => ⟨S1x32, .f32⟩
  | .hbm, ⟨36, _⟩ => ⟨S32768x32, .f32⟩
  | .hbm, ⟨37, _⟩ => ⟨S32768x32, .f32⟩
  | .hbm, ⟨38, _⟩ => ⟨S_, .f32⟩
  | .hbm, ⟨39, _⟩ => ⟨S32768x32, .f32⟩
  | .hbm, ⟨40, _⟩ => ⟨S32768x32, .f32⟩
  | .hbm, ⟨41, _⟩ => ⟨S32768x1, .f32⟩
  | .hbm, ⟨42, _⟩ => ⟨S1x1, .f32⟩
  | .hbm, ⟨43, _⟩ => ⟨S32768x1, .f32⟩
  | .hbm, ⟨44, _⟩ => ⟨S32768x1, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_cst : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  bcast_S32768x32_S32768x32x1_0_1 : S32768x32.BroadcastsInDim S32768x32x1 (![0, 1] : Fin 2 → Fin S32768x32x1.rank)
  bcast_S32768x32_S32768x1x32_0_2 : S32768x32.BroadcastsInDim S32768x1x32 (![0, 2] : Fin 2 → Fin S32768x1x32.rank)
  bcast_S32768x32x1_S32768x32x32_0_1_2 : S32768x32x1.BroadcastsInDim S32768x32x32 (![0, 1, 2] : Fin 3 → Fin S32768x32x32.rank)
  bcast_S32768x1x32_S32768x32x32_0_1_2 : S32768x1x32.BroadcastsInDim S32768x32x32 (![0, 1, 2] : Fin 3 → Fin S32768x32x32.rank)
  shapeCasts_S32768x32x32_S32768x1024 : S32768x32x32.ShapeCasts S32768x1024
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x1024_S32x1024_S32768x32_1_1_0_0_n_n_wf : DotDims.WF S32768x1024 S32x1024 S32768x32 [1] [1] [0] [0] [] []
  dot_S32768x1024_S1024x32_S32768x32_1_0_0_1_n_n_wf : DotDims.WF S32768x1024 S1024x32 S32768x32 [1] [0] [0] [1] [] []
  dot_S32768x1024_S1024x512_S32768x512_1_0_0_1_n_n_wf : DotDims.WF S32768x1024 S1024x512 S32768x512 [1] [0] [0] [1] [] []
  dot_S32768x512_S512x128_S32768x128_1_0_0_1_n_n_wf : DotDims.WF S32768x512 S512x128 S32768x128 [1] [0] [0] [1] [] []
  dot_S32768x128_S128x32_S32768x32_1_0_0_1_n_n_wf : DotDims.WF S32768x128 S128x32 S32768x32 [1] [0] [0] [1] [] []
  dot_S32768x32_S32x1_S32768x1_1_0_0_1_n_n_wf : DotDims.WF S32768x32 S32x1 S32768x1 [1] [0] [0] [1] [] []

variable [Facts₀]

def dot_S32768x1024_S32x1024_S32768x32_1_1_0_0_n_n : DotDims S32768x1024 S32x1024 S32768x32 where
  lhsContracting := [1]
  rhsContracting := [1]
  lhsNonContracting := [0]
  rhsNonContracting := [0]
  lhsBatch := []
  rhsBatch := []
  wf := dot_S32768x1024_S32x1024_S32768x32_1_1_0_0_n_n_wf
def dot_S32768x1024_S1024x32_S32768x32_1_0_0_1_n_n : DotDims S32768x1024 S1024x32 S32768x32 where
  lhsContracting := [1]
  rhsContracting := [0]
  lhsNonContracting := [0]
  rhsNonContracting := [1]
  lhsBatch := []
  rhsBatch := []
  wf := dot_S32768x1024_S1024x32_S32768x32_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf
def dot_S32768x128_S128x32_S32768x32_1_0_0_1_n_n : DotDims S32768x128 S128x32 S32768x32 where
  lhsContracting := [1]
  rhsContracting := [0]
  lhsNonContracting := [0]
  rhsNonContracting := [1]
  lhsBatch := []
  rhsBatch := []
  wf := dot_S32768x128_S128x32_S32768x32_1_0_0_1_n_n_wf
def dot_S32768x32_S32x1_S32768x1_1_0_0_1_n_n : DotDims S32768x32 S32x1 S32768x1 where
  lhsContracting := [1]
  rhsContracting := [0]
  lhsNonContracting := [0]
  rhsNonContracting := [1]
  lhsBatch := []
  rhsBatch := []
  wf := dot_S32768x32_S32x1_S32768x1_1_0_0_1_n_n_wf

class Facts : Prop extends Facts₀ where

variable [Facts]
-- ==== Proof.RowNet.lean ====
/-
  The network one batch row goes through, on the extended reals.

  A row of the first input and a row of the second are each projected to 32 numbers (u from the first, v from the
  second). Their outer product, flattened so that position 32·c + r holds v c · u r, is a vector of 1024 numbers, which
  three hidden layers (an affine map, then the maximum with zero) and a last affine map take to one number.

  The kernel reaches the flattened outer product through two products with 0/1 selection matrices; the sum against a
  column with a single one is one term (`Cert.Lib.sum_mul_single`), which is why `colOf` and `rowOf` below name the row
  of that one in column q.
-/
import Idealize.ShloMosaic.Lib.ValueIdx

noncomputable section

namespace Cert.RowNet

open Idealize.ShloMosaic Idealize.ShloMosaic.ValueIdx
open scoped BigOperators

/-- An affine map of a vector: entry j of h · W + b. -/
def affine {k n : ℕ} (h : Fin k → EReal) (W : Fin k → Fin n → EReal) (b : Fin n → EReal) (j : Fin n) : EReal :=
  (∑ i : Fin k, h i * W i j) + b j

/-- A hidden layer: the affine map followed by the maximum with zero. -/
def hidden {k n : ℕ} (h : Fin k → EReal) (W : Fin k → Fin n → EReal) (b : Fin n → EReal) (j : Fin n) : EReal :=
  max (affine h W b j) 0

/-- A vector against the columns of a matrix: entry c of x · Q. -/
def proj {k n : ℕ} (x : Fin k → EReal) (Q : Fin k → Fin n → EReal) (c : Fin n) : EReal :=
  ∑ j : Fin k, x j * Q j c

/-- Position q = 32·c + r of the flattened outer product belongs to column c = q / 32 … -/
def colOf (q : Fin 1024) : Fin 32 := ⟨q.val / 32, by have := q.isLt; omega⟩
/-- … and to row r = q mod 32. -/
def rowOf (q : Fin 1024) : Fin 32 := ⟨q.val % 32, by omega⟩

/-- The flattened outer product: position 32·c + r holds v c · u r. -/
def outer (v u : Fin 32 → EReal) (q : Fin 1024) : EReal := v (colOf q) * u (rowOf q)

/-- The three hidden layers and the last affine map, from the 1024 products to the one result. -/
def tail (x3 : Fin 1024 → EReal) (W1 : Fin 1024 → Fin 512 → EReal) (b1 : Fin 512 → EReal)
    (W2 : Fin 512 → Fin 128 → EReal) (b2 : Fin 128 → EReal) (W3 : Fin 128 → Fin 32 → EReal) (b3 : Fin 32 → EReal)
    (W4 : Fin 32 → Fin 1 → EReal) (b4 : Fin 1 → EReal) : EReal :=
  affine (hidden (hidden (hidden x3 W1 b1) W2 b2) W3 b3) W4 b4 0

abbrev Mat (m n : ℕ) := (⟨2, ![m, n]⟩ : Shape).Idx → EReal
abbrev Vect (n : ℕ) := (⟨1, ![n]⟩ : Shape).Idx → EReal

/-- The result for one row, from that row of each input and the parameter arrays: P is the [32, 1024] projection of
    the first input (contracted along its long axis), Q the [1024, 32] projection of the second. -/
def rowScore (x1 x2 : Fin 1024 → EReal) (P : Mat 32 1024) (Q : Mat 1024 32) (W1 : Mat 1024 512) (b1 : Vect 512)
    (W2 : Mat 512 128) (b2 : Vect 128) (W3 : Mat 128 32) (b3 : Vect 32) (W4 : Mat 32 1) (b4 : Vect 1) : EReal :=
  tail (outer (proj x2 fun j c => Q (ix2 j c)) (proj x1 fun i r => P (ix2 r i)))
    (fun q n => W1 (ix2 q n)) (fun n => b1 (ix1 n)) (fun q n => W2 (ix2 q n)) (fun n => b2 (ix1 n))
    (fun q n => W3 (ix2 q n)) (fun n => b3 (ix1 n)) (fun q n => W4 (ix2 q n)) (fun n => b4 (ix1 n))

/-- The whole [32768, 1] result: row i 0 of the two inputs through the network. -/
def score (a0 a1 : Mat 32768 1024) (P : Mat 32 1024) (Q : Mat 1024 32) (W1 : Mat 1024 512) (b1 : Vect 512)
    (W2 : Mat 512 128) (b2 : Vect 128) (W3 : Mat 128 32) (b3 : Vect 32) (W4 : Mat 32 1) (b4 : Vect 1) : Mat 32768 1 :=
  fun i => rowScore (fun k => a0 (ix2 (i 0) k)) (fun k => a1 (ix2 (i 0) k)) P Q W1 b1 W2 b2 W3 b3 W4 b4

end Cert.RowNet

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibSelectionSum.lean ====
/-
  A sum against a 0/1 column with a single one, over the extended reals.

  Multiplying a row vector into a selection matrix (every column all zeros but for a single one) picks out one entry per
  column. On the extended reals this needs no finiteness: x · 0 = 0 and x · 1 = x hold for every x, the two infinities
  included, so every term of the sum but one is zero and the sum is that one term.
-/
import Idealize.ShloMosaic.PureOps.Ideal

namespace Cert.Lib

open scoped BigOperators

/-- A sum over `Fin n` of `f c` times the indicator of `c = c₀` is `f c₀`, for extended-real `f` (infinite values
    allowed): the sum of a vector against a column whose single one sits in row `c₀`. -/
theorem sum_mul_single {n : ℕ} (f : Fin n → EReal) (c₀ : Fin n) :
    (∑ c : Fin n, f c * (if c = c₀ then (1 : EReal) else 0)) = f c₀ := by
  rw [Finset.sum_eq_single c₀]
  · rw [if_pos rfl, mul_one]
  · intro c _ hc; rw [if_neg hc, mul_zero]
  · intro h; exact absurd (Finset.mem_univ _) h

end Cert.Lib
-- ==== Proof.BodyValue.lean ====
/-
  What the kernel body stores for one row of its block, on the extended reals.

  The body works on a block of 1024 rows. For row p it contracts row p of each input block with its projection
  matrix (u from the first, v from the second), widens v and u to 1024 entries by a product with a 0/1 selection matrix
  each, multiplies the two widened rows entry by entry, and runs the three hidden layers and the last affine map. With
  the selection matrices' entries known (column q of the first has its one in row q / 32, column q of the second in row
  q mod 32) each widening sum is a single term, and the 1024 products are the flattened outer product of v and u: the
  stored value at row p is the row network of `RowNet` applied to row p of the input blocks.

  Every contraction is a plain [m, k] × [k, n] product into a zero accumulator, read at an entry as a sum over k; the
  changes of float format are the identity on the extended reals.
-/
import proofs.«119563_j36721970381123_2_alg».proof.Proof.Gen.KernelIdeal.Skeleton
import proofs.«119563_j36721970381123_2_alg».proof.Proof.RowNet
import proofs.«119563_j36721970381123_2_alg».proof.Proof.LibPlainMatmul
import proofs.«119563_j36721970381123_2_alg».proof.Proof.LibSelectionSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.RowNet
open scoped BigOperators

/-! ## The six contractions of the body, each read at an entry -/

theorem mm_1024_1024_32 {φ₁ φ₂ : FTy} (prec : Option ContractPrecision) (A : FVec Ideal S1024x1024 φ₁) (B : FVec Ideal S1024x32 φ₂)
    (a : Fin 1024) (b : Fin 32) :
    matmul dot_S1024x1024_S1024x32_S1024x32_1_0_0_1_n_n prec A B (constant S1024x32 .f32 0x00000000#32) (ix2 a b)
      = ∑ c : Fin 1024, A (ix2 a c) * B (ix2 c b) :=
  Cert.Lib.matmul_plain_zero_apply prec A B a b

theorem mm_1024_32_1024 {φ₁ φ₂ : FTy} (prec : Option ContractPrecision) (A : FVec Ideal S1024x32 φ₁) (B : FVec Ideal S32x1024 φ₂)
    (a : Fin 1024) (b : Fin 1024) :
    matmul dot_S1024x32_S32x1024_S1024x1024_1_0_0_1_n_n prec A B (constant S1024x1024 .f32 0x00000000#32) (ix2 a b)
      = ∑ c : Fin 32, A (ix2 a c) * B (ix2 c b) :=
  Cert.Lib.matmul_plain_zero_apply prec A B a b

theorem mm_1024_1024_512 {φ₁ φ₂ : FTy} (prec : Option ContractPrecision) (A : FVec Ideal S1024x1024 φ₁) (B : FVec Ideal S1024x512 φ₂)
    (a : Fin 1024) (b : Fin 512) :
    matmul dot_S1024x1024_S1024x512_S1024x512_1_0_0_1_n_n prec A B (constant S1024x512 .f32 0x00000000#32) (ix2 a b)
      = ∑ c : Fin 1024, A (ix2 a c) * B (ix2 c b) :=
  Cert.Lib.matmul_plain_zero_apply prec A B a b

theorem mm_1024_512_128 {φ₁ φ₂ : FTy} (prec : Option ContractPrecision) (A : FVec Ideal S1024x512 φ₁) (B : FVec Ideal S512x128 φ₂)
    (a : Fin 1024) (b : Fin 128) :
    matmul dot_S1024x512_S512x128_S1024x128_1_0_0_1_n_n prec A B (constant S1024x128 .f32 0x00000000#32) (ix2 a b)
      = ∑ c : Fin 512, A (ix2 a c) * B (ix2 c b) :=
  Cert.Lib.matmul_plain_zero_apply prec A B a b

theorem mm_1024_128_32 {φ₁ φ₂ : FTy} (prec : Option ContractPrecision) (A : FVec Ideal S1024x128 φ₁) (B : FVec Ideal S128x32 φ₂)
    (a : Fin 1024) (b : Fin 32) :
    matmul dot_S1024x128_S128x32_S1024x32_1_0_0_1_n_n prec A B (constant S1024x32 .f32 0x00000000#32) (ix2 a b)
      = ∑ c : Fin 128, A (ix2 a c) * B (ix2 c b) :=
  Cert.Lib.matmul_plain_zero_apply prec A B a b

theorem mm_1024_32_1 {φ₁ φ₂ : FTy} (prec : Option ContractPrecision) (A : FVec Ideal S1024x32 φ₁) (B : FVec Ideal S32x1 φ₂)
    (a : Fin 1024) (b : Fin 1) :
    matmul dot_S1024x32_S32x1_S1024x1_1_0_0_1_n_n prec A B (constant S1024x1 .f32 0x00000000#32) (ix2 a b)
      = ∑ c : Fin 32, A (ix2 a c) * B (ix2 c b) :=
  Cert.Lib.matmul_plain_zero_apply prec A B a b

/-- The zero the hidden layers take their maximum with is the extended real zero. -/
theorem relu_zero : (Scalar.ofBits (F := Ideal) .f32 0x00000000#32 : Ideal .f32) = (0 : EReal) := Ideal.ofBits_zero_f32

/-! ## The stored value at a row -/

/-- Row p of what the body stores, from row p of the two input blocks and the parameter blocks, when the two
    selection blocks hold ones exactly where column q meets row q / 32 (the first) and row q mod 32 (the second). -/
theorem stored_row (x0 : Vec Ideal S1024x1024 .f32) (x1 : Vec Ideal S1024x1024 .f32) (x2 : Vec Ideal S1024x32 .f32) (x3 : Vec Ideal S1024x32 .f32)
    (x4 : Vec Ideal S32x1024 .f32) (x5 : Vec Ideal S32x1024 .f32) (x6 : Vec Ideal S1024x512 .bf16) (x7 : Vec Ideal S512 .f32)
    (x8 : Vec Ideal S512x128 .bf16) (x9 : Vec Ideal S128 .f32) (x10 : Vec Ideal S128x32 .bf16) (x11 : Vec Ideal S32 .f32)
    (x12 : Vec Ideal S32x1 .bf16) (x13 : Vec Ideal S1 .f32)
    (h4 : ∀ (c : Fin 32) (q : Fin 1024), x4 (ix2 c q) = if c = colOf q then (1 : EReal) else 0)
    (h5 : ∀ (r : Fin 32) (q : Fin 1024), x5 (ix2 r q) = if r = rowOf q then (1 : EReal) else 0)
    (p : Fin 1024) (o : Fin 1) :
    k0_pay1 (k0_pay2 x0 x1 x2 x3 x4 x5 x6 x7 x8 x9) (k0_pay3 (F := Ideal)) x10 x11 x12 x13 (ix2 p o)
      = tail (outer (proj (fun j => x1 (ix2 p j)) fun j c => x3 (ix2 j c)) (proj (fun i => x0 (ix2 p i)) fun i r => x2 (ix2 i r)))
          (fun q n => x6 (ix2 q n)) (fun n => x7 (ix1 n)) (fun q n => x8 (ix2 q n)) (fun n => x9 (ix1 n))
          (fun q n => x10 (ix2 q n)) (fun n => x11 (ix1 n)) (fun q n => x12 (ix2 q n)) (fun n => x13 (ix1 n)) := by
  obtain rfl : o = 0 := Subsingleton.elim _ _
  unfold k0_pay1 k0_pay2 k0_pay3
  simp only [addf_apply, mulf_apply, maximumf_apply, truncf_apply, broadcast_apply, mm_1024_1024_32, mm_1024_32_1024,
    mm_1024_1024_512, mm_1024_512_128, mm_1024_128_32, mm_1024_32_1, shapeCast_self, broadcastTo_1b_ab_apply,
    shapeCast_a_1a_apply, h4, h5, Cert.Lib.sum_mul_single, relu_zero]
  rfl

end Cert.KernelIdeal.BodyValue

end
-- ==== Proof.HostPrep.lean ====
/-
  The arrays the kernel's region finds that the host prepared before it.

  Besides the arguments themselves the region reads seven arrays the host computed first: the transpose of the
  [32, 1024] projection; two [32, 1024] selection matrices; and the four weight matrices after a change of float format,
  which on the extended reals is the identity.

  Both selection matrices are re-laid copies of the 32 × 32 identity pattern I (I (i, j) = 1 if i = j, else 0):
  the first repeats every column 32 times, so its entry (c, q) is I (c, q / 32); the second lays 32 copies of I side by
  side, so its entry (r, q) is I (r, q mod 32). Position q = 32 · (q / 32) + q mod 32 of a row of 1024 is position
  (q / 32, q mod 32) of the 32 × 32 grid the reshapes go through.
-/
import proofs.«119563_j36721970381123_2_alg».proof.Proof.Gen.KernelIdeal.Frame
import proofs.«119563_j36721970381123_2_alg».proof.Proof.RowNet
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section

namespace Cert.KernelIdeal.HostPrep

open Cert.KernelIdeal Cert.KernelIdeal.Gen Idealize.ShloMosaic Idealize.ShloMosaic.TcCoe Idealize.ShloMosaic.ValueIdx
open Idealize.ShloMosaic.StableHlo Idealize.SL.Sem Cert.RowNet

/-! ## The identity pattern -/

/-- The 32 × 32 pattern the host builds: row number compared with column number, as a float. -/
def eye : FVec Ideal S32x32 .f32 :=
  uitofp .f32 (cmpi .eq (addi (iotaInDim S32x32 32 0) (broadcastInDim S32x32 ![] bcast_S_S32x32 (constantI S_ 32 0#32))) (iotaInDim S32x32 32 1))

/-- Two numbers below 32 are equal as 32-bit words exactly when they are equal. -/
theorem word_eq_iff (i j : Fin 32) : (BitVec.ofNat 32 i.val + 0#32 == BitVec.ofNat 32 j.val) = decide (i = j) := by
  rw [BitVec.add_zero]
  by_cases h : i = j
  · subst h; simp
  · have hne : BitVec.ofNat 32 i.val ≠ BitVec.ofNat 32 j.val := by
      intro e
      have e' := congrArg BitVec.toNat e
      simp only [BitVec.toNat_ofNat] at e'
      have hi := i.isLt; have hj := j.isLt
      rw [Nat.mod_eq_of_lt (by omega), Nat.mod_eq_of_lt (by omega)] at e'
      exact h (Fin.ext e')
    simp [hne, h]

/-- The pattern is the identity matrix: one on the diagonal, zero off it. -/
theorem eye_apply (i j : Fin 32) : eye (ix2 i j) = if i = j then (1 : EReal) else 0 := by
  show (((BitVec.ofBool (BitVec.ofNat 32 i.val + 0#32 == BitVec.ofNat 32 j.val)).toNat : ℝ) : EReal) = _
  rw [word_eq_iff]
  by_cases h : i = j <;> simp [h]

/-! ## The two selection matrices, entry by entry -/

/-- Every column of the identity repeated 32 times: entry (c, q) is one exactly when c = q / 32. -/
theorem repeat_apply (c : Fin 32) (q : Fin 1024) :
    shapeCast S32x1024 (broadcastInDim S32x32x32 ![0, 1] bcast_S32x32_S32x32x32_0_1 eye) shapeCasts_S32x32x32_S32x1024 (ix2 c q)
      = if c = colOf q then (1 : EReal) else 0 := by
  have hq := q.isLt
  refine (shapeCast_apply _ shapeCasts_S32x32x32_S32x1024 (ix2 c q) (ix3 c (colOf q) (rowOf q)) ?_).trans ?_
  · rw [Shape.rowMajor_val_three, Shape.rowMajor_val_two]
    show (c.val * 32 + q.val / 32) * 32 + q.val % 32 = c.val * 1024 + q.val
    omega
  · refine (broadcastInDim_apply _ bcast_S32x32_S32x32x32_0_1 eye (ix3 c (colOf q) (rowOf q)) (ix2 c (colOf q)) (fun a => ?_)).trans (eye_apply c (colOf q))
    match a with
    | ⟨0, _⟩ => show c.val = if (32 : Nat) = 1 then 0 else c.val; rw [if_neg (by decide)]
    | ⟨1, _⟩ => show (colOf q).val = if (32 : Nat) = 1 then 0 else (colOf q).val; rw [if_neg (by decide)]

/-- 32 copies of the identity side by side: entry (r, q) is one exactly when r = q mod 32. -/
theorem tile_apply (r : Fin 32) (q : Fin 1024) :
    shapeCast S32x1024 (broadcastInDim S1x32x32x32 ![0, 1, 2, 3] bcast_S1x32x1x32_S1x32x32x32_0_1_2_3
        (shapeCast S1x32x1x32 eye shapeCasts_S32x32_S1x32x1x32)) shapeCasts_S1x32x32x32_S32x1024 (ix2 r q)
      = if r = rowOf q then (1 : EReal) else 0 := by
  have hq := q.isLt
  refine (shapeCast_apply _ shapeCasts_S1x32x32x32_S32x1024 (ix2 r q) (ix4 (0 : Fin 1) r (colOf q) (rowOf q)) ?_).trans ?_
  · rw [Shape.rowMajor_val_four, Shape.rowMajor_val_two]
    show ((0 * 32 + r.val) * 32 + q.val / 32) * 32 + q.val % 32 = r.val * 1024 + q.val
    omega
  · refine (broadcastInDim_apply _ bcast_S1x32x1x32_S1x32x32x32_0_1_2_3 _ (ix4 (0 : Fin 1) r (colOf q) (rowOf q))
      (ix4 (0 : Fin 1) r (0 : Fin 1) (rowOf q)) (fun a => ?_)).trans ?_
    · match a with
      | ⟨0, _⟩ => show (0 : Nat) = if (1 : Nat) = 1 then 0 else 0; rw [if_pos rfl]
      | ⟨1, _⟩ => show r.val = if (32 : Nat) = 1 then 0 else r.val; rw [if_neg (by decide)]
      | ⟨2, _⟩ => show (0 : Nat) = if (1 : Nat) = 1 then 0 else (colOf q).val; rw [if_pos rfl]
      | ⟨3, _⟩ => show (rowOf q).val = if (32 : Nat) = 1 then 0 else (rowOf q).val; rw [if_neg (by decide)]
    · refine (shapeCast_apply eye shapeCasts_S32x32_S1x32x1x32 (ix4 (0 : Fin 1) r (0 : Fin 1) (rowOf q)) (ix2 r (rowOf q)) ?_).trans
        (eye_apply r (rowOf q))
      rw [Shape.rowMajor_val_four, Shape.rowMajor_val_two]
      show r.val * 32 + (rowOf q).val = ((0 * 32 + r.val) * 1 + 0) * 32 + (rowOf q).val
      omega

/-! ## What the region finds -/

variable (m : (ℓ : Loc nD τ sig) → Buf (Elt Ideal) ℓ)

/-- The first projection, transposed. -/
theorem found_v0 (c : Dev nD) :
    (V m c main_v0 : S1024x32.Idx → EReal) = transpose S1024x32 [1, 0] (m ((c : Thread nD τ).loc main_arg2)) transposes_S32x1024_S1024x32_1_0 := by
  dsimp only [V, hostOps0]; after_results

/-- The first selection matrix. -/
theorem found_v8 (c : Dev nD) :
    (V m c main_v8 : S32x1024.Idx → EReal)
      = shapeCast S32x1024 (broadcastInDim S32x32x32 ![0, 1] bcast_S32x32_S32x32x32_0_1 eye) shapeCasts_S32x32x32_S32x1024 := by
  dsimp only [V, hostOps0]; after_results; rfl

/-- The second selection matrix. -/
theorem found_v11 (c : Dev nD) :
    (V m c main_v11 : S32x1024.Idx → EReal)
      = shapeCast S32x1024 (broadcastInDim S1x32x32x32 ![0, 1, 2, 3] bcast_S1x32x1x32_S1x32x32x32_0_1_2_3
          (shapeCast S1x32x1x32 eye shapeCasts_S32x32_S1x32x1x32)) shapeCasts_S1x32x32x32_S32x1024 := by
  dsimp only [V, hostOps0]; after_results; rfl

/-- The four weight matrices: a change of float format, the identity on the extended reals. -/
theorem found_v12 (c : Dev nD) : (V m c main_v12 : S1024x512.Idx → EReal) = m ((c : Thread nD τ).loc main_arg4) := by
  dsimp only [V, hostOps0]; after_results; rfl
theorem found_v13 (c : Dev nD) : (V m c main_v13 : S512x128.Idx → EReal) = m ((c : Thread nD τ).loc main_arg6) := by
  dsimp only [V, hostOps0]; after_results; rfl
theorem found_v14 (c : Dev nD) : (V m c main_v14 : S128x32.Idx → EReal) = m ((c : Thread nD τ).loc main_arg8) := by
  dsimp only [V, hostOps0]; after_results; rfl
theorem found_v15 (c : Dev nD) : (V m c main_v15 : S32x1.Idx → EReal) = m ((c : Thread nD τ).loc main_arg10) := by
  dsimp only [V, hostOps0]; after_results; rfl

end Cert.KernelIdeal.HostPrep

end
-- ==== Proof.ArrayValue.lean ====
/-
  The kernel's result array, as one function of the argument arrays.

  The grid has 32 points; point t works on rows 1024·t … 1024·t + 1023 of the two inputs and writes rows
  1024·t … 1024·t + 1023 of the [32768, 1] result, every parameter array being read whole at every point. So row p of
  what point t writes back is the row network applied to row 1024·t + p of the inputs: block t of `RowNet.score`. The 32
  blocks cover the result array, which therefore ends holding `RowNet.score` of the arguments.
-/
import proofs.«119563_j36721970381123_2_alg».proof.Proof.Gen.KernelIdeal.Value
import proofs.«119563_j36721970381123_2_alg».proof.Proof.BodyValue
import proofs.«119563_j36721970381123_2_alg».proof.Proof.HostPrep
import Idealize.ShloMosaic.Lib.ValueLayout

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem Cert.RowNet Cert.KernelIdeal.BodyValue Cert.KernelIdeal.HostPrep
open Idealize.ShloMosaic.Pipeline (Dat)

/-! ## A block's row against the whole arrays -/

/-- Row p of what the body stores when its input blocks are rows 1024·T … of the two inputs and its parameter blocks
    are the parameter arrays (the first projection transposed, the selection blocks as the host made them): the row
    network of row 1024·T + p. -/
theorem block_row (x0 : Vec Ideal S1024x1024 .f32) (x1 : Vec Ideal S1024x1024 .f32) (x2 : Vec Ideal S1024x32 .f32) (x3 : Vec Ideal S1024x32 .f32)
    (x4 : Vec Ideal S32x1024 .f32) (x5 : Vec Ideal S32x1024 .f32) (x6 : Vec Ideal S1024x512 .bf16) (x7 : Vec Ideal S512 .f32)
    (x8 : Vec Ideal S512x128 .bf16) (x9 : Vec Ideal S128 .f32) (x10 : Vec Ideal S128x32 .bf16) (x11 : Vec Ideal S32 .f32)
    (x12 : Vec Ideal S32x1 .bf16) (x13 : Vec Ideal S1 .f32)
    (a0 a1 : Mat 32768 1024) (a2 : Mat 32 1024) (a3 : Mat 1024 32) (a4 : Mat 1024 512) (a5 : Vect 512) (a6 : Mat 512 128) (a7 : Vect 128)
    (a8 : Mat 128 32) (a9 : Vect 32) (a10 : Mat 32 1) (a11 : Vect 1) (T : Nat) (hT : T < 32)
    (h0 : ∀ (p k : Fin 1024), x0 (ix2 p k) = a0 (ix2 ⟨T * 1024 + p.val, by have := p.isLt; omega⟩ k))
    (h1 : ∀ (p k : Fin 1024), x1 (ix2 p k) = a1 (ix2 ⟨T * 1024 + p.val, by have := p.isLt; omega⟩ k))
    (h2 : ∀ (k : Fin 1024) (r : Fin 32), x2 (ix2 k r) = a2 (ix2 r k))
    (h3 : ∀ (k : Fin 1024) (c : Fin 32), x3 (ix2 k c) = a3 (ix2 k c))
    (h4 : ∀ (c : Fin 32) (q : Fin 1024), x4 (ix2 c q) = if c = colOf q then (1 : EReal) else 0)
    (h5 : ∀ (r : Fin 32) (q : Fin 1024), x5 (ix2 r q) = if r = rowOf q then (1 : EReal) else 0)
    (h6 : ∀ (q : Fin 1024) (n : Fin 512), x6 (ix2 q n) = a4 (ix2 q n)) (h7 : ∀ n : Fin 512, x7 (ix1 n) = a5 (ix1 n))
    (h8 : ∀ (q : Fin 512) (n : Fin 128), x8 (ix2 q n) = a6 (ix2 q n)) (h9 : ∀ n : Fin 128, x9 (ix1 n) = a7 (ix1 n))
    (h10 : ∀ (q : Fin 128) (n : Fin 32), x10 (ix2 q n) = a8 (ix2 q n)) (h11 : ∀ n : Fin 32, x11 (ix1 n) = a9 (ix1 n))
    (h12 : ∀ (q : Fin 32) (n : Fin 1), x12 (ix2 q n) = a10 (ix2 q n)) (h13 : ∀ n : Fin 1, x13 (ix1 n) = a11 (ix1 n))
    (y : S1024x1.Idx) (i : S32768x1.Idx) (hi0 : (i 0).val = T * 1024 + (y 0).val) :
    k0_pay1 (k0_pay2 x0 x1 x2 x3 x4 x5 x6 x7 x8 x9) (k0_pay3 (F := Ideal)) x10 x11 x12 x13 y
      = score a0 a1 a2 a3 a4 a5 a6 a7 a8 a9 a10 a11 i := by
  obtain ⟨p, o, rfl⟩ : ∃ (p : Fin 1024) (o : Fin 1), y = ix2 p o := ⟨y 0, y 1, eq_ix2 y⟩
  have hi : i 0 = (⟨T * 1024 + p.val, by have := p.isLt; omega⟩ : Fin 32768) := Fin.ext hi0
  rw [stored_row x0 x1 x2 x3 x4 x5 x6 x7 x8 x9 x10 x11 x12 x13 h4 h5 p o]
  unfold score rowScore
  simp only [h0, h1, h2, h3, h6, h7, h8, h9, h10, h11, h12, h13, hi]

/-! ## The windows' index maps, decided over the 32 points -/

theorem idx_io : ∀ t : Fin cfg0.N, win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

theorem idx_par2 : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_10.index t (0 : Fin 2) = 0 ∧ win0_10.index t (1 : Fin 2) = 0
    ∧ win0_12.index t (0 : Fin 2) = 0 ∧ win0_12.index t (1 : Fin 2) = 0 :=
  (by decide +kernel : ∀ t : Fin grid0.N, _)

theorem idx_par1 : ∀ t : Fin cfg0.N, win0_7.index t (0 : Fin 1) = 0 ∧ win0_9.index t (0 : Fin 1) = 0
    ∧ win0_11.index t (0 : Fin 1) = 0 ∧ win0_13.index t (0 : Fin 1) = 0 :=
  (by decide +kernel : ∀ t : Fin grid0.N, _)

theorem off2 : (![0, 0] : Fin 2 → Nat) = fun _ => 0 := funext fun a => by fin_cases a <;> rfl
theorem off1 : (![0] : Fin 1 → Nat) = fun _ => 0 := funext fun a => by fin_cases a; rfl

variable (m : (ℓ : Loc nD τ sig) → Buf (Elt Ideal) ℓ) (ρ : Dev nD → PrngReg)

/-- The result array as a function of the argument arrays. -/
abbrev result (c : Dev nD) : S32768x1.Idx → EReal :=
  score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## Each window's block at a point, read off the arrays -/

/-- The grid has 32 points. -/
theorem lt32 (t : Fin cfg0.N) : t.val < 32 := by
  have hN : cfg0.N = 32 := N_0
  have := t.isLt
  omega

/-- Row p of point t's block of input 0 is row 1024·t + p of the input. -/
theorem in0_row (c : Dev nD) (t : Fin cfg0.N) (p k : Fin 1024) :
    (iblk m c 0 t : S1024x1024.Idx → EReal) (ix2 p k)
      = m ((c : Thread nD τ).loc main_arg0) (ix2 (⟨t.val * 1024 + p.val, by have := lt32 t; have := p.isLt; omega⟩ : Fin 32768) k) := by
  obtain ⟨i00, i01, i10, i11, -, -⟩ := idx_io t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- Row p of point t's block of input 1 is row 1024·t + p of the input. -/
theorem in1_row (c : Dev nD) (t : Fin cfg0.N) (p k : Fin 1024) :
    (iblk m c 1 t : S1024x1024.Idx → EReal) (ix2 p k)
      = m ((c : Thread nD τ).loc main_arg1) (ix2 (⟨t.val * 1024 + p.val, by have := lt32 t; have := p.isLt; omega⟩ : Fin 32768) k) := by
  obtain ⟨i00, i01, i10, i11, -, -⟩ := idx_io t
  show V m c main_arg1 (((cfg0.win 1).blk t).view.emb (ix2 p k)) = _
  rw [V_main_arg1]
  refine congrArg _ (funext fun a => Fin.ext ?_)
  match a with
  | ⟨0, _⟩ => show win0_1.index t (0 : Fin 2) * 1024 + 1 * p.val = t.val * 1024 + p.val; omega
  | ⟨1, _⟩ => show win0_1.index t (1 : Fin 2) * 1024 + 1 * k.val = k.val; omega

/-- The block of the transposed first projection is the whole of it, at every point: entry (k, r) is entry (r, k) of the projection. -/
theorem par2_entry (c : Dev nD) (t : Fin cfg0.N) (k : Fin 1024) (r : Fin 32) :
    (iblk m c 2 t : S1024x32.Idx → EReal) (ix2 k r) = m ((c : Thread nD τ).loc main_arg2) (ix2 r k) := by
  obtain ⟨p20, p21, p30, p31, p40, p41, p50, p51, p60, p61, p80, p81, pa0, pa1, pc0, pc1⟩ := idx_par2 t
  show (V m c main_v0 : S1024x32.Idx → EReal) (((cfg0.win 2).blk t).view.emb (ix2 k r)) = _
  rw [found_v0]
  refine Eq.trans (congrArg _ (funext fun a => Fin.ext ?_)) (transpose_ix2_apply _ transposes_S32x1024_S1024x32_1_0 k r)
  match a with
  | ⟨0, _⟩ => show win0_2.index t (0 : Fin 2) * 1024 + 1 * k.val = k.val; omega
  | ⟨1, _⟩ => show win0_2.index t (1 : Fin 2) * 32 + 1 * r.val = r.val; omega

/-- The block of the second projection is the whole of it, at every point. -/
theorem par3_entry (c : Dev nD) (t : Fin cfg0.N) (k : Fin 1024) (cc : Fin 32) :
    (iblk m c 3 t : S1024x32.Idx → EReal) (ix2 k cc) = m ((c : Thread nD τ).loc main_arg3) (ix2 k cc) := by
  obtain ⟨p20, p21, p30, p31, p40, p41, p50, p51, p60, p61, p80, p81, pa0, pa1, pc0, pc1⟩ := idx_par2 t
  show (V m c main_arg3 : S1024x32.Idx → EReal) (((cfg0.win 3).blk t).view.emb (ix2 k cc)) = _
  rw [V_main_arg3]
  refine congrArg _ (funext fun a => Fin.ext ?_)
  match a with
  | ⟨0, _⟩ => show win0_3.index t (0 : Fin 2) * 1024 + 1 * k.val = k.val; omega
  | ⟨1, _⟩ => show win0_3.index t (1 : Fin 2) * 32 + 1 * cc.val = cc.val; omega

/-- The block of the first selection matrix is the whole of it: a one exactly where the row is the column's q / 32. -/
theorem par4_entry (c : Dev nD) (t : Fin cfg0.N) (cc : Fin 32) (q : Fin 1024) :
    (iblk m c 4 t : S32x1024.Idx → EReal) (ix2 cc q) = if cc = colOf q then (1 : EReal) else 0 := by
  obtain ⟨p20, p21, p30, p31, p40, p41, p50, p51, p60, p61, p80, p81, pa0, pa1, pc0, pc1⟩ := idx_par2 t
  show (V m c main_v8 : S32x1024.Idx → EReal) (((cfg0.win 4).blk t).view.emb (ix2 cc q)) = _
  rw [found_v8]
  refine Eq.trans (congrArg _ (funext fun a => Fin.ext ?_)) (repeat_apply cc q)
  match a with
  | ⟨0, _⟩ => show win0_4.index t (0 : Fin 2) * 32 + 1 * cc.val = cc.val; omega
  | ⟨1, _⟩ => show win0_4.index t (1 : Fin 2) * 1024 + 1 * q.val = q.val; omega

/-- The block of the second selection matrix is the whole of it: a one exactly where the row is the column's q mod 32. -/
theorem par5_entry (c : Dev nD) (t : Fin cfg0.N) (r : Fin 32) (q : Fin 1024) :
    (iblk m c 5 t : S32x1024.Idx → EReal) (ix2 r q) = if r = rowOf q then (1 : EReal) else 0 := by
  obtain ⟨p20, p21, p30, p31, p40, p41, p50, p51, p60, p61, p80, p81, pa0, pa1, pc0, pc1⟩ := idx_par2 t
  show (V m c main_v11 : S32x1024.Idx → EReal) (((cfg0.win 5).blk t).view.emb (ix2 r q)) = _
  rw [found_v11]
  refine Eq.trans (congrArg _ (funext fun a => Fin.ext ?_)) (tile_apply r q)
  match a with
  | ⟨0, _⟩ => show win0_5.index t (0 : Fin 2) * 32 + 1 * r.val = r.val; omega
  | ⟨1, _⟩ => show win0_5.index t (1 : Fin 2) * 1024 + 1 * q.val = q.val; omega

/-- The first layer's weights, whole at every point. -/
theorem par6_entry (c : Dev nD) (t : Fin cfg0.N) (q : Fin 1024) (n : Fin 512) :
    (iblk m c 6 t : S1024x512.Idx → EReal) (ix2 q n) = m ((c : Thread nD τ).loc main_arg4) (ix2 q n) := by
  obtain ⟨p20, p21, p30, p31, p40, p41, p50, p51, p60, p61, p80, p81, pa0, pa1, pc0, pc1⟩ := idx_par2 t
  show (V m c main_v12 : S1024x512.Idx → EReal) (((cfg0.win 6).blk t).view.emb (ix2 q n)) = _
  rw [found_v12]
  refine congrArg _ (funext fun a => Fin.ext ?_)
  match a with
  | ⟨0, _⟩ => show win0_6.index t (0 : Fin 2) * 1024 + 1 * q.val = q.val; omega
  | ⟨1, _⟩ => show win0_6.index t (1 : Fin 2) * 512 + 1 * n.val = n.val; omega

/-- The first layer's bias, whole at every point. -/
theorem par7_entry (c : Dev nD) (t : Fin cfg0.N) (n : Fin 512) :
    (iblk m c 7 t : S512.Idx → EReal) (ix1 n) = m ((c : Thread nD τ).loc main_arg5) (ix1 n) := by
  obtain ⟨p7, p9, pb, pd⟩ := idx_par1 t
  show V m c main_arg5 (((cfg0.win 7).blk t).view.emb (ix1 n)) = _
  rw [V_main_arg5]
  refine congrArg _ (funext fun a => Fin.ext ?_)
  match a with
  | ⟨0, _⟩ => show win0_7.index t (0 : Fin 1) * 512 + 1 * n.val = n.val; omega

/-- The second layer's weights, whole at every point. -/
theorem par8_entry (c : Dev nD) (t : Fin cfg0.N) (q : Fin 512) (n : Fin 128) :
    (iblk m c 8 t : S512x128.Idx → EReal) (ix2 q n) = m ((c : Thread nD τ).loc main_arg6) (ix2 q n) := by
  obtain ⟨p20, p21, p30, p31, p40, p41, p50, p51, p60, p61, p80, p81, pa0, pa1, pc0, pc1⟩ := idx_par2 t
  show (V m c main_v13 : S512x128.Idx → EReal) (((cfg0.win 8).blk t).view.emb (ix2 q n)) = _
  rw [found_v13]
  refine congrArg _ (funext fun a => Fin.ext ?_)
  match a with
  | ⟨0, _⟩ => show win0_8.index t (0 : Fin 2) * 512 + 1 * q.val = q.val; omega
  | ⟨1, _⟩ => show win0_8.index t (1 : Fin 2) * 128 + 1 * n.val = n.val; omega

/-- The second layer's bias, whole at every point. -/
theorem par9_entry (c : Dev nD) (t : Fin cfg0.N) (n : Fin 128) :
    (iblk m c 9 t : S128.Idx → EReal) (ix1 n) = m ((c : Thread nD τ).loc main_arg7) (ix1 n) := by
  obtain ⟨p7, p9, pb, pd⟩ := idx_par1 t
  show V m c main_arg7 (((cfg0.win 9).blk t).view.emb (ix1 n)) = _
  rw [V_main_arg7]
  refine congrArg _ (funext fun a => Fin.ext ?_)
  match a with
  | ⟨0, _⟩ => show win0_9.index t (0 : Fin 1) * 128 + 1 * n.val = n.val; omega

/-- The third layer's weights, whole at every point. -/
theorem par10_entry (c : Dev nD) (t : Fin cfg0.N) (q : Fin 128) (n : Fin 32) :
    (iblk m c 10 t : S128x32.Idx → EReal) (ix2 q n) = m ((c : Thread nD τ).loc main_arg8) (ix2 q n) := by
  obtain ⟨p20, p21, p30, p31, p40, p41, p50, p51, p60, p61, p80, p81, pa0, pa1, pc0, pc1⟩ := idx_par2 t
  show (V m c main_v14 : S128x32.Idx → EReal) (((cfg0.win 10).blk t).view.emb (ix2 q n)) = _
  rw [found_v14]
  refine congrArg _ (funext fun a => Fin.ext ?_)
  match a with
  | ⟨0, _⟩ => show win0_10.index t (0 : Fin 2) * 128 + 1 * q.val = q.val; omega
  | ⟨1, _⟩ => show win0_10.index t (1 : Fin 2) * 32 + 1 * n.val = n.val; omega

/-- The third layer's bias, whole at every point. -/
theorem par11_entry (c : Dev nD) (t : Fin cfg0.N) (n : Fin 32) :
    (iblk m c 11 t : S32.Idx → EReal) (ix1 n) = m ((c : Thread nD τ).loc main_arg9) (ix1 n) := by
  obtain ⟨p7, p9, pb, pd⟩ := idx_par1 t
  show V m c main_arg9 (((cfg0.win 11).blk t).view.emb (ix1 n)) = _
  rw [V_main_arg9]
  refine congrArg _ (funext fun a => Fin.ext ?_)
  match a with
  | ⟨0, _⟩ => show win0_11.index t (0 : Fin 1) * 32 + 1 * n.val = n.val; omega

/-- The last map's weights, whole at every point. -/
theorem par12_entry (c : Dev nD) (t : Fin cfg0.N) (q : Fin 32) (n : Fin 1) :
    (iblk m c 12 t : S32x1.Idx → EReal) (ix2 q n) = m ((c : Thread nD τ).loc main_arg10) (ix2 q n) := by
  obtain ⟨p20, p21, p30, p31, p40, p41, p50, p51, p60, p61, p80, p81, pa0, pa1, pc0, pc1⟩ := idx_par2 t
  show (V m c main_v15 : S32x1.Idx → EReal) (((cfg0.win 12).blk t).view.emb (ix2 q n)) = _
  rw [found_v15]
  refine congrArg _ (funext fun a => Fin.ext ?_)
  match a with
  | ⟨0, _⟩ => show win0_12.index t (0 : Fin 2) * 32 + 1 * q.val = q.val; omega
  | ⟨1, _⟩ => show win0_12.index t (1 : Fin 2) * 1 + 1 * n.val = n.val; omega

/-- The last map's bias, whole at every point. -/
theorem par13_entry (c : Dev nD) (t : Fin cfg0.N) (n : Fin 1) :
    (iblk m c 13 t : S1.Idx → EReal) (ix1 n) = m ((c : Thread nD τ).loc main_arg11) (ix1 n) := by
  obtain ⟨p7, p9, pb, pd⟩ := idx_par1 t
  show V m c main_arg11 (((cfg0.win 13).blk t).view.emb (ix1 n)) = _
  rw [V_main_arg11]
  refine congrArg _ (funext fun a => Fin.ext ?_)
  match a with
  | ⟨0, _⟩ => show win0_13.index t (0 : Fin 1) * 1 + 1 * n.val = n.val; omega

/-! ## What a point writes back -/

/-- Point t writes back block t of `result`. -/
theorem flushed_eq (c : Dev nD) (t : Fin cfg0.N) :
    (dats m 0 c).flushed 14 t = ((cfg0.win 14).blk t).view.read (Elt Ideal) (result m c) := by
  rw [Value.flushed14]
  unfold out0_14
  rw [View.canon_unit_zero off2]
  simp only [View.ld_unit_zero (S := S1024x1024) off2, View.ld_unit_zero (S := S1024x32) off2, View.ld_unit_zero (S := S32x1024) off2,
    View.ld_unit_zero (S := S1024x512) off2, View.ld_unit_zero (S := S512x128) off2, View.ld_unit_zero (S := S128x32) off2,
    View.ld_unit_zero (S := S32x1) off2, View.ld_unit_zero (S := S512) off1, View.ld_unit_zero (S := S128) off1,
    View.ld_unit_zero (S := S32) off1, View.ld_unit_zero (S := S1) off1]
  obtain ⟨-, -, -, -, o0, o1⟩ := idx_io t
  funext y
  show k0_pay1 (k0_pay2 (iblk m c 0 t) (iblk m c 1 t) (iblk m c 2 t) (iblk m c 3 t) (iblk m c 4 t) (iblk m c 5 t) (iblk m c 6 t) (iblk m c 7 t)
      (iblk m c 8 t) (iblk m c 9 t)) (k0_pay3 (F := Ideal)) (iblk m c 10 t) (iblk m c 11 t) (iblk m c 12 t) (iblk m c 13 t) y
    = result m c (((cfg0.win 14).blk t).view.emb y)
  refine block_row (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    t.val (lt32 t) (in0_row m c t) (in1_row m c t) (par2_entry m c t) (par3_entry m c t) (par4_entry m c t) (par5_entry m c t)
    (par6_entry m c t) (par7_entry m c t) (par8_entry m c t) (par9_entry m c t) (par10_entry m c t) (par11_entry m c t)
    (par12_entry m c t) (par13_entry m c t) y (((cfg0.win 14).blk t).view.emb y) ?_
  show win0_14.index t (0 : Fin 2) * 1024 + 1 * (y 0).val = t.val * 1024 + (y 0).val
  omega

/-! ## The blocks cover the array -/

/-- Row r of the result is in the block of point r / 1024. -/
theorem cover (i : S32768x1.Idx) : ∃ t : Fin cfg0.N, (cfg0.win 14).flush t = true ∧ i ∈ ((cfg0.win 14).blk t).view.set := by
  have h0 : (i 0).val < 32768 := (i 0).isLt
  have h1 : (i 1).val < 1 := (i 1).isLt
  have hN : cfg0.N = 32 := N_0
  let t : Fin cfg0.N := ⟨(i 0).val / 1024, by rw [hN]; omega⟩
  have htv : t.val = (i 0).val / 1024 := rfl
  obtain ⟨-, -, -, -, o0, o1⟩ := idx_io t
  refine ⟨t, flush0_14 t, ?_⟩
  show i ∈ ((View.whole main_v16).slice (win0_14.rect t)).set
  rw [View.set_slice_whole, Rect.mem_set_unit]
  intro a
  match a with
  | ⟨0, _⟩ =>
    show win0_14.index t (0 : Fin 2) * 1024 ≤ (i 0).val ∧ (i 0).val < win0_14.index t (0 : Fin 2) * 1024 + 1024
    omega
  | ⟨1, _⟩ =>
    show win0_14.index t (1 : Fin 2) * 1 ≤ (i 1).val ∧ (i 1).val < win0_14.index t (1 : Fin 2) * 1 + 1
    omega

/-- So the result array ends holding `result`. -/
theorem final (c : Dev nD) : (dats m 0 c).arrAt 14 cfg0.N = result m c :=
  (dats m 0 c).arrAt_eq_of_cover 14 (result m c) (fun t _ => flushed_eq m c t) cover

/-! ## The run -/

/-- Every weakly fair execution of the kernel's program ends with the result array at `result` of the arguments, the
    arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.ArrayValue

end
-- ==== Proof.RefValue.lean ====
/-
  The reference computes the row network of `RowNet`, row by row.

  The reference contracts each input with its projection over the whole batch, forms for every row b the 32 × 32 table
  v (b, c) · u (b, r) by two broadcasts and a product, flattens it (row-major, so position 32·c + r of row b holds the
  entry (c, r)), and applies three hidden layers and a last affine map, each a contraction over the previous layer's
  width plus a bias broadcast along the batch. Read at row b, every stage depends on row b of the stage before only,
  which is what `RowNet.score` says.
-/
import proofs.«119563_j36721970381123_2_alg».proof.Proof.Gen.ReferenceIdeal.Read
import proofs.«119563_j36721970381123_2_alg».proof.Proof.RowNet
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.RowNet
open scoped BigOperators

/-- The first projection at (b, r): row b of the first input against row r of the [32, 1024] matrix. -/
theorem u_apply (x0 : (⟨S32768x1024, .f32⟩ : BufTy).Contents (Elt Ideal)) (x2 : (⟨S32x1024, .f32⟩ : BufTy).Contents (Elt Ideal)) (b : Fin 32768) (r : Fin 32) :
    val_main_v0 (F := Ideal) x0 x2 (ix2 b r) = proj (fun k => x0 (ix2 b k)) (fun k r => x2 (ix2 r k)) r := by
  rw [val_main_v0_apply]
  have el : ∀ k, lidx_main_v0 (ix2 b r) k = ix2 b k := fun k => funext fun a => by
    match a with | ⟨0, _⟩ => rfl | ⟨1, _⟩ => rfl
  have er : ∀ k, ridx_main_v0 (ix2 b r) k = ix2 r k := fun k => funext fun a => by
    match a with | ⟨0, _⟩ => rfl | ⟨1, _⟩ => rfl
  simp only [el, er]
  rfl

/-- The second projection at (b, c): row b of the second input against column c of the [1024, 32] matrix. -/
theorem v_apply (x1 : (⟨S32768x1024, .f32⟩ : BufTy).Contents (Elt Ideal)) (x3 : (⟨S1024x32, .f32⟩ : BufTy).Contents (Elt Ideal)) (b : Fin 32768) (c : Fin 32) :
    val_main_v1 (F := Ideal) x1 x3 (ix2 b c) = proj (fun k => x1 (ix2 b k)) (fun k c => x3 (ix2 k c)) c := by
  rw [val_main_v1_apply]
  have el : ∀ k, lidx_main_v1 (ix2 b c) k = ix2 b k := fun k => funext fun a => by
    match a with | ⟨0, _⟩ => rfl | ⟨1, _⟩ => rfl
  have er : ∀ k, ridx_main_v1 (ix2 b c) k = ix2 k c := fun k => funext fun a => by
    match a with | ⟨0, _⟩ => rfl | ⟨1, _⟩ => rfl
  simp only [el, er]
  rfl

/-- The flattened table at (b, q): the outer product of row b's two projections at position q. -/
theorem x3_apply (x0 : (⟨S32768x1024, .f32⟩ : BufTy).Contents (Elt Ideal)) (x1 : (⟨S32768x1024, .f32⟩ : BufTy).Contents (Elt Ideal)) (x2 : (⟨S32x1024, .f32⟩ : BufTy).Contents (Elt Ideal)) (x3 : (⟨S1024x32, .f32⟩ : BufTy).Contents (Elt Ideal)) (b : Fin 32768) (q : Fin 1024) :
    val_main_v7 (F := Ideal) x0 x1 x2 x3 (ix2 b q)
      = outer (proj (fun k => x1 (ix2 b k)) fun k c => x3 (ix2 k c)) (proj (fun k => x0 (ix2 b k)) fun k r => x2 (ix2 r k)) q := by
  have hq := q.isLt
  have e7 : idx_main_v7 (ix2 b q) = ix3 b (colOf q) (rowOf q) := funext fun a => Fin.ext (by
    match a with
    | ⟨0, _⟩ => show (b.val * 1024 + q.val) / 1024 = b.val; omega
    | ⟨1, _⟩ => show (b.val * 1024 + q.val) / 32 % 32 = q.val / 32; omega
    | ⟨2, _⟩ => show (b.val * 1024 + q.val) % 32 = q.val % 32; omega)
  have e42 : idx_main_v2 (idx_main_v4 (ix3 b (colOf q) (rowOf q))) = ix2 b (colOf q) := funext fun a => by
    match a with | ⟨0, _⟩ => rfl | ⟨1, _⟩ => rfl
  have e53 : idx_main_v3 (idx_main_v5 (ix3 b (colOf q) (rowOf q))) = ix2 b (rowOf q) := funext fun a => by
    match a with | ⟨0, _⟩ => rfl | ⟨1, _⟩ => rfl
  rw [val_main_v7_apply, e7, val_main_v6_apply, val_main_v4_apply, val_main_v2_apply, e42, val_main_v5_apply, val_main_v3_apply, e53,
    v_apply, u_apply]
  rfl

/-- The first hidden layer at (b, n). -/
theorem h1_apply (x0 : (⟨S32768x1024, .f32⟩ : BufTy).Contents (Elt Ideal)) (x1 : (⟨S32768x1024, .f32⟩ : BufTy).Contents (Elt Ideal)) (x2 : (⟨S32x1024, .f32⟩ : BufTy).Contents (Elt Ideal)) (x3 : (⟨S1024x32, .f32⟩ : BufTy).Contents (Elt Ideal)) (x4 : (⟨S1024x512, .f32⟩ : BufTy).Contents (Elt Ideal)) (x5 : (⟨S512, .f32⟩ : BufTy).Contents (Elt Ideal)) (b : Fin 32768) (n : Fin 512) :
    val_main_v12 (F := Ideal) x0 x1 x2 x3 x4 x5 (ix2 b n)
      = hidden (fun q => val_main_v7 (F := Ideal) x0 x1 x2 x3 (ix2 b q)) (fun q n => x4 (ix2 q n)) (fun n => x5 (ix1 n)) n := by
  rw [val_main_v12_apply, val_main_v11_apply, val_main_v8_apply, val_main_v10_apply, val_main_v9_apply, val_main_call0_v0_apply,
    val_main_call0_cst_apply]
  have el : ∀ k, lidx_main_v8 (ix2 b n) k = ix2 b k := fun k => funext fun a => by
    match a with | ⟨0, _⟩ => rfl | ⟨1, _⟩ => rfl
  have er : ∀ k, ridx_main_v8 (ix2 b n) k = ix2 k n := fun k => funext fun a => by
    match a with | ⟨0, _⟩ => rfl | ⟨1, _⟩ => rfl
  have eb : idx_main_v9 (idx_main_v10 (ix2 b n)) = ix1 n := funext fun a => by
    match a with | ⟨0, _⟩ => rfl
  simp only [el, er, eb, Ideal.maximumf_def, Ideal.addf_def, Ideal.ofBits_def, Ideal.ofBits_zero_f32]
  rfl

/-- The second hidden layer at (b, n). -/
theorem h2_apply (x0 : (⟨S32768x1024, .f32⟩ : BufTy).Contents (Elt Ideal)) (x1 : (⟨S32768x1024, .f32⟩ : BufTy).Contents (Elt Ideal)) (x2 : (⟨S32x1024, .f32⟩ : BufTy).Contents (Elt Ideal)) (x3 : (⟨S1024x32, .f32⟩ : BufTy).Contents (Elt Ideal)) (x4 : (⟨S1024x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal)) (b : Fin 32768) (n : Fin 128) :
    val_main_v17 (F := Ideal) x0 x1 x2 x3 x4 x5 x6 x7 (ix2 b n)
      = hidden (fun q => val_main_v12 (F := Ideal) x0 x1 x2 x3 x4 x5 (ix2 b q)) (fun q n => x6 (ix2 q n)) (fun n => x7 (ix1 n)) n := by
  rw [val_main_v17_apply, val_main_v16_apply, val_main_v13_apply, val_main_v15_apply, val_main_v14_apply, val_main_call1_v0_apply,
    val_main_call1_cst_apply]
  have el : ∀ k, lidx_main_v13 (ix2 b n) k = ix2 b k := fun k => funext fun a => by
    match a with | ⟨0, _⟩ => rfl | ⟨1, _⟩ => rfl
  have er : ∀ k, ridx_main_v13 (ix2 b n) k = ix2 k n := fun k => funext fun a => by
    match a with | ⟨0, _⟩ => rfl | ⟨1, _⟩ => rfl
  have eb : idx_main_v14 (idx_main_v15 (ix2 b n)) = ix1 n := funext fun a => by
    match a with | ⟨0, _⟩ => rfl
  simp only [el, er, eb, Ideal.maximumf_def, Ideal.addf_def, Ideal.ofBits_def, Ideal.ofBits_zero_f32]
  rfl

/-- The third hidden layer at (b, n). -/
theorem h3_apply (x0 : (⟨S32768x1024, .f32⟩ : BufTy).Contents (Elt Ideal)) (x1 : (⟨S32768x1024, .f32⟩ : BufTy).Contents (Elt Ideal)) (x2 : (⟨S32x1024, .f32⟩ : BufTy).Contents (Elt Ideal)) (x3 : (⟨S1024x32, .f32⟩ : BufTy).Contents (Elt Ideal)) (x4 : (⟨S1024x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal)) (x8 : (⟨S128x32, .f32⟩ : BufTy).Contents (Elt Ideal)) (x9 : (⟨S32, .f32⟩ : BufTy).Contents (Elt Ideal)) (b : Fin 32768) (n : Fin 32) :
    val_main_v22 (F := Ideal) x0 x1 x2 x3 x4 x5 x6 x7 x8 x9 (ix2 b n)
      = hidden (fun q => val_main_v17 (F := Ideal) x0 x1 x2 x3 x4 x5 x6 x7 (ix2 b q)) (fun q n => x8 (ix2 q n)) (fun n => x9 (ix1 n)) n := by
  rw [val_main_v22_apply, val_main_v21_apply, val_main_v18_apply, val_main_v20_apply, val_main_v19_apply, val_main_call2_v0_apply,
    val_main_call2_cst_apply]
  have el : ∀ k, lidx_main_v18 (ix2 b n) k = ix2 b k := fun k => funext fun a => by
    match a with | ⟨0, _⟩ => rfl | ⟨1, _⟩ => rfl
  have er : ∀ k, ridx_main_v18 (ix2 b n) k = ix2 k n := fun k => funext fun a => by
    match a with | ⟨0, _⟩ => rfl | ⟨1, _⟩ => rfl
  have eb : idx_main_v19 (idx_main_v20 (ix2 b n)) = ix1 n := funext fun a => by
    match a with | ⟨0, _⟩ => rfl
  simp only [el, er, eb, Ideal.maximumf_def, Ideal.addf_def, Ideal.ofBits_def, Ideal.ofBits_zero_f32]
  rfl

/-- The last affine map at (b, o). -/
theorem out_apply (x0 : (⟨S32768x1024, .f32⟩ : BufTy).Contents (Elt Ideal)) (x1 : (⟨S32768x1024, .f32⟩ : BufTy).Contents (Elt Ideal)) (x2 : (⟨S32x1024, .f32⟩ : BufTy).Contents (Elt Ideal)) (x3 : (⟨S1024x32, .f32⟩ : BufTy).Contents (Elt Ideal)) (x4 : (⟨S1024x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal)) (x8 : (⟨S128x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) (b : Fin 32768) (o : Fin 1) :
    val_main_v26 (F := Ideal) x0 x1 x2 x3 x4 x5 x6 x7 x8 x9 x10 x11 (ix2 b o)
      = affine (fun q => val_main_v22 (F := Ideal) x0 x1 x2 x3 x4 x5 x6 x7 x8 x9 (ix2 b q)) (fun q n => x10 (ix2 q n)) (fun n => x11 (ix1 n)) o := by
  rw [val_main_v26_apply, val_main_v23_apply, val_main_v25_apply, val_main_v24_apply]
  have el : ∀ k, lidx_main_v23 (ix2 b o) k = ix2 b k := fun k => funext fun a => by
    match a with | ⟨0, _⟩ => rfl | ⟨1, _⟩ => rfl
  have er : ∀ k, ridx_main_v23 (ix2 b o) k = ix2 k o := fun k => funext fun a => by
    match a with | ⟨0, _⟩ => rfl | ⟨1, _⟩ => rfl
  have eb : idx_main_v24 (idx_main_v25 (ix2 b o)) = ix1 o := funext fun a => by
    match a with | ⟨0, _⟩ => exact Fin.ext (by have := o.isLt; show (0 : Nat) = o.val; omega)
  simp only [el, er, eb, Ideal.addf_def]
  rfl

/-- The reference's result is the row network of each row. -/
theorem result_eq (x0 : (⟨S32768x1024, .f32⟩ : BufTy).Contents (Elt Ideal)) (x1 : (⟨S32768x1024, .f32⟩ : BufTy).Contents (Elt Ideal)) (x2 : (⟨S32x1024, .f32⟩ : BufTy).Contents (Elt Ideal)) (x3 : (⟨S1024x32, .f32⟩ : BufTy).Contents (Elt Ideal)) (x4 : (⟨S1024x512, .f32⟩ : BufTy).Contents (Elt Ideal)) (x5 : (⟨S512, .f32⟩ : BufTy).Contents (Elt Ideal)) (x6 : (⟨S512x128, .f32⟩ : BufTy).Contents (Elt Ideal)) (x7 : (⟨S128, .f32⟩ : BufTy).Contents (Elt Ideal)) (x8 : (⟨S128x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) :
    val_main_v26 (F := Ideal) x0 x1 x2 x3 x4 x5 x6 x7 x8 x9 x10 x11 = score x0 x1 x2 x3 x4 x5 x6 x7 x8 x9 x10 x11 := by
  funext i
  obtain ⟨b, o, rfl⟩ : ∃ (b : Fin 32768) (o : Fin 1), i = ix2 b o := ⟨i 0, i 1, eq_ix2 i⟩
  obtain rfl : o = 0 := Subsingleton.elim _ _
  rw [out_apply]
  simp only [h3_apply, h2_apply, h1_apply, x3_apply]
  rfl

end Cert.ReferenceIdeal.RefValue

end
-- ==== Proof.lean ====
/-
  A pair of 1024-wide inputs, row by row through a low-rank bilinear form and a small network: the kernel and its
  reference compute one function on the extended reals.

  For each of the 32768 batch rows both programs project the row of the first input to 32 numbers u and the row of the
  second to 32 numbers v, form the 1024 products v c · u r at position 32·c + r, and apply three hidden layers (an affine
  map, then the maximum with zero) of widths 512, 128, 32 and a last affine map to one number (`RowNet`).

  The reference does this over the whole batch at once: two contractions, two broadcasts and a product for the table of
  products, a row-major flattening, and four contractions with broadcast biases (`RefValue`).

  The kernel walks the batch in 32 blocks of 1024 rows. It never forms the 32 × 32 table: it widens v and u to 1024
  entries each by a matrix product with a 0/1 selection matrix (column q of the first has its one in row q / 32, of the
  second in row q mod 32; the host lays both out from the identity pattern, `HostPrep`) and multiplies entry by entry. A
  sum against a column with a single one is the term at that one's row, on the extended reals too (x · 0 = 0 and
  x · 1 = x hold at the infinities), so the widened rows are v (q / 32) and u (q mod 32) and no finiteness of the inputs
  is used (`BodyValue`). The weights' change of float format is the identity on the extended reals, every contraction
  into a zero accumulator is the plain sum, and the 32 blocks written back tile the result array (`ArrayValue`).

  The kernel's idealization rewrote nothing, so that conjunct is trivial; the three frames are the generated ones, the
  reference's being its run with the result dropped.
-/
import proofs.«119563_j36721970381123_2_alg».proof.Defs
import proofs.«119563_j36721970381123_2_alg».proof.Proof.Gen.Kernel
import proofs.«119563_j36721970381123_2_alg».proof.Proof.Gen.Kernel.Skeleton
import proofs.«119563_j36721970381123_2_alg».proof.Proof.Gen.Kernel.Launch
import proofs.«119563_j36721970381123_2_alg».proof.Proof.Gen.Kernel.Points
import proofs.«119563_j36721970381123_2_alg».proof.Proof.Gen.Kernel.Frame
import proofs.«119563_j36721970381123_2_alg».proof.Proof.Gen.KernelIdeal
import proofs.«119563_j36721970381123_2_alg».proof.Proof.Gen.KernelIdeal.Skeleton
import proofs.«119563_j36721970381123_2_alg».proof.Proof.Gen.KernelIdeal.Launch
import proofs.«119563_j36721970381123_2_alg».proof.Proof.Gen.KernelIdeal.Points
import proofs.«119563_j36721970381123_2_alg».proof.Proof.Gen.KernelIdeal.Frame
import proofs.«119563_j36721970381123_2_alg».proof.Proof.Gen.ReferenceIdeal
import proofs.«119563_j36721970381123_2_alg».proof.Proof.Gen.Pre_finite_inputs
import proofs.«119563_j36721970381123_2_alg».proof.Proof.Gen.KernelIdeal.Value
import proofs.«119563_j36721970381123_2_alg».proof.Proof.Gen.ReferenceIdeal.Run
import proofs.«119563_j36721970381123_2_alg».proof.Proof.Gen.ReferenceIdeal.Read
import proofs.«119563_j36721970381123_2_alg».proof.Proof.ArrayValue
import proofs.«119563_j36721970381123_2_alg».proof.Proof.RefValue
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read on the extended reals. -/
theorem preserves : Cert.preserves_Kernel_KernelIdeal := trivial

/-- From memories that agree on the twelve arguments both programs end with the result array at the row network of
    every row: the kernel block by block, the reference over the whole batch. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v26_eq, Cert.ReferenceIdeal.RefValue.result_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
